-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384 : Shape := ⟨1, ![16384]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : IVec S16384 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S16384x4096 : Shape := ⟨2, ![16384, 4096]⟩
abbrev S16384 : Shape := ⟨1, ![16384]⟩
abbrev S16384x1 : Shape := ⟨2, ![16384, 1]⟩
abbrev S512x4096 : Shape := ⟨2, ![512, 4096]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384, .i32⟩
  | .hbm, ⟨2, _⟩ => ⟨S16384x1, .i32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x1, .i32⟩
  | .local _ .vmem, ⟨3, _⟩ => ⟨S512x1, .i32⟩
  | .local _ .vmem, ⟨4, _⟩ => ⟨S512x4096, .f32⟩
  | .local _ .vmem, ⟨5, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16384_S16384x1 : S16384.ShapeCasts S16384x1
  iota_S512x4096_d1_w32 : S512x4096.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  natLt_1_32 : 1 < 32
  inb_S512x4096_S512x4096_0_0 : ∀ a, (![0, 0] : Fin 2 → Nat) a + S512x4096.size a ≤ S512x4096.size a
  h_S512x4096 : 0 < S512x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S16384x4096 : Shape := ⟨2, ![16384, 4096]⟩
abbrev S16384 : Shape := ⟨1, ![16384]⟩
abbrev S4096 : Shape := ⟨1, ![4096]⟩
abbrev S1x4096 : Shape := ⟨2, ![1, 4096]⟩
abbrev S16384x1 : Shape := ⟨2, ![16384, 1]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384, .i32⟩
  | .hbm, ⟨2, _⟩ => ⟨S4096, .i32⟩
  | .hbm, ⟨3, _⟩ => ⟨S1x4096, .i32⟩
  | .hbm, ⟨4, _⟩ => ⟨S16384x1, .i32⟩
  | .hbm, ⟨5, _⟩ => ⟨S16384x4096, .i32⟩
  | .hbm, ⟨6, _⟩ => ⟨S16384x4096, .i32⟩
  | .hbm, ⟨7, _⟩ => ⟨S16384x4096, .i1⟩
  | .hbm, ⟨8, _⟩ => ⟨S16384x4096, .f32⟩
  | .hbm, ⟨9, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S16384_S16384x1_0 : S16384.BroadcastsInDim S16384x1 (![0] : Fin 1 → Fin S16384x1.rank)
  bcast_S1x4096_S16384x4096_0_1 : S1x4096.BroadcastsInDim S16384x4096 (![0, 1] : Fin 2 → Fin S16384x4096.rank)
  bcast_S16384x1_S16384x4096_0_1 : S16384x1.BroadcastsInDim S16384x4096 (![0, 1] : Fin 2 → Fin S16384x4096.rank)

variable [Facts₀]

class Facts : Prop extends Facts₀ where

variable [Facts]
-- ==== Proof.PrefixMask.lean ====
/-
  The mathematics of the claim. Row n of a 16384 × 4096 array of extended reals is multiplied, entry by entry, by the
  0/1 row whose first b[n] entries are 1:
      out[n, j] = x[n, j] · [j < b[n]],
  the comparison being that of signed 32-bit numbers between the column number's word and the cutoff word b[n]
  (any word: nothing is assumed of the cutoffs). `keep j b` is that factor, the comparison's one-bit word read as a
  number. One program widens the bit to 32 bits by zeros and reads the word as a signed number, the other reads the
  bit as an unsigned number; a one-bit word widened by zeros is 0 or 1 on either reading (`sitofp_widened_bit`,
  `uitofp_bit`). Both programs then form the SAME product x · keep, so no law of extended-real arithmetic is needed
  beyond the equality of the factors: infinite entries of x are no exception and finiteness is never used.
-/
import Idealize.ShloMosaic.PureOps.Ideal
import Idealize.ShloMosaic.Lib.ValueIdx
import Idealize.ShloMosaic.Lib.KernelVsHost

noncomputable section

namespace Cert.PrefixMask

open Idealize.ShloMosaic Idealize.ShloMosaic.ValueIdx

/-- 16384 rows of 4096 entries. -/
abbrev Rows : Shape := ⟨2, ![16384, 4096]⟩
/-- One cutoff per row. -/
abbrev Cuts : Shape := ⟨1, ![16384]⟩

/-- The factor at column `j` of a row whose cutoff is the word `b`: 1 when `j < b` as signed 32-bit numbers, else 0
    — the comparison's bit read as a number. -/
def keep (j : Nat) (b : BitVec 32) : EReal :=
  (((IntOp.cmpi .slt (BitVec.ofNat 32 j) b).toNat : ℝ) : EReal)

/-- Every row keeps its entries before its cutoff, and from the cutoff on holds the entry times 0. -/
def prefixMasked (x : Rows.Idx → EReal) (b : Cuts.Idx → BitVec 32) : Rows.Idx → EReal :=
  fun i => x i * keep (i 1).val (b (ix1 (i 0)))

/-- The comparison's bit converted to a float as an UNSIGNED number is the factor. -/
theorem uitofp_bit (j : Nat) (b : BitVec 32) :
    FloatOps.uitofp (F := Ideal) .f32 (IntOp.cmpi .slt (BitVec.ofNat 32 j) b) = keep j b := rfl

/-- The bit widened to 32 bits by zeros and converted as a SIGNED number is the same factor: the widened word is
    0 or 1, and its signed reading is its unsigned one. -/
theorem sitofp_widened_bit (j : Nat) (b : BitVec 32) :
    FloatOps.sitofp (F := Ideal) .f32 ((IntOp.cmpi .slt (BitVec.ofNat 32 j) b).setWidth 32) = keep j b := by
  show ((((IntOp.cmpi .slt (BitVec.ofNat 32 j) b).setWidth 32).toInt : ℝ) : EReal) = _
  rw [toInt_setWidth_bit]
  unfold keep
  norm_cast

end Cert.PrefixMask

end
-- ==== Proof.ReferenceMask.lean ====
/-
  The reference. The column numbers 0 … 4095 as a row, laid down the 16384 rows; the cutoffs as a column, laid along
  the 4096 columns; the two compared as signed 32-bit numbers; the comparison's bit read as an unsigned number; the
  argument multiplied by it. Read at (n, j), one operation at a time, this is x[n, j] · keep j b[n]: the reference's
  result is the specification's `prefixMasked`.
-/
import proofs.«119946_j88476326298285_2_alg».proof.Proof.Gen.ReferenceIdeal.Read
import proofs.«119946_j88476326298285_2_alg».proof.Proof.PrefixMask

noncomputable section

namespace Cert.ReferenceIdeal.RefValue

open Cert.ReferenceIdeal Cert.ReferenceIdeal.Read Cert.PrefixMask Idealize.ShloMosaic Idealize.ShloMosaic.ValueIdx

/-- The reference's last stage is `prefixMasked` of its two arguments: at (n, j) the iota row read through its two
    layout steps is the word of j, the cutoff column read through its two layout steps is b[n], and the unsigned
    reading of their comparison's bit is the factor (`uitofp_bit`). -/
theorem reference_eq (x : (⟨S16384x4096, .f32⟩ : BufTy).Contents (Elt Ideal))
    (b : (⟨S16384, .i32⟩ : BufTy).Contents (Elt Ideal)) :
    val_main_v7 (F := Ideal) x b = prefixMasked x b := by
  funext i
  have hrow : idx_main_v2 (idx_main_v4 i) = ix1 (i 0) :=
    funext fun a => Fin.ext (by match a with | ⟨0, _⟩ => rfl)
  rw [val_main_v7_apply, val_main_v6_apply, val_main_v5_apply, val_main_v3_apply, val_main_v1_apply,
    val_main_v0_apply, val_main_v4_apply, val_main_v2_apply, hrow]
  exact congrArg (x i * ·) (uitofp_bit (i 1).val (b (ix1 (i 0))))

end Cert.ReferenceIdeal.RefValue

end
-- ==== Proof.BlockMask.lean ====
/-
  One block of the kernel: 512 rows of 4096 entries, with the 512 cutoffs of those rows as a 512 × 1 column. The body
  lays the column along the 4096 columns, compares the column numbers 0 … 4095 of the block with it as signed 32-bit
  numbers, widens the comparison's bit to a 32-bit word, reads that word as a signed number and multiplies the block's
  entries by it. Read at row p, column q of the block this is
      block[p, q] · keep q (cutoffs[p, 0]):
  the column number within the block IS the column number of the array (the blocks are whole rows), and the factor is
  the one of the specification by `sitofp_widened_bit`.
-/
import proofs.«119946_j88476326298285_2_alg».proof.Proof.Gen.KernelIdeal.Skeleton
import proofs.«119946_j88476326298285_2_alg».proof.Proof.PrefixMask
import Idealize.ShloMosaic.Lib.Pipeline.Value
import Idealize.ShloMosaic.Lib.ValueIdx

noncomputable section

namespace Cert.KernelIdeal.BlockValue

open Cert.KernelIdeal Cert.KernelIdeal.Gen Cert.PrefixMask Idealize.ShloMosaic Idealize.ShloMosaic.ValueIdx

/-- The cutoff column laid along the 4096 columns reads, at (p, q), the column's entry of row p. -/
theorem cut_along_row (cut : IVec S512x1 32) (p : Fin 512) (q : Fin 4096) :
    broadcastTo S512x4096 (shapeCast S512x1 cut shapeCasts_S512x1_S512x1) broadcasts_S512x1_S512x4096 (ix2 p q)
      = cut (ix2 p 0) := by
  rw [shapeCast_self]
  exact broadcastTo_apply cut broadcasts_S512x1_S512x4096 (ix2 p q) (ix2 p 0) (fun a => match a with
    | ⟨0, _⟩ => by show p.val = if (512 : Nat) = 1 then 0 else p.val; rw [if_neg (by decide)]
    | ⟨1, _⟩ => by show 0 = if (1 : Nat) = 1 then 0 else q.val; rw [if_pos rfl])

/-- The body's product at row `p`, column `q` of a block: the block's entry times the factor of column `q` against the
    cutoff of row `p`. -/
theorem payload_apply (cut : Vec Ideal S512x1 .i32) (blk : Vec Ideal S512x4096 .f32) (p : Fin 512) (q : Fin 4096) :
    k0_pay1 (F := Ideal) cut blk (ix2 p q) = blk (ix2 p q) * keep q.val (cut (ix2 p 0)) := by
  unfold k0_pay1
  show blk (ix2 p q) * FloatOps.sitofp (F := Ideal) .f32
      ((IntOp.cmpi .slt (iota .tc S512x4096 32 [1] iota_S512x4096_d1_w32 (ix2 p q))
        (broadcastTo S512x4096 (shapeCast S512x1 cut shapeCasts_S512x1_S512x1) broadcasts_S512x1_S512x4096 (ix2 p q))).setWidth 32) = _
  rw [iota_single_apply, cut_along_row]
  exact congrArg (blk (ix2 p q) * ·) (sitofp_widened_bit q.val (cut (ix2 p 0)))

end Cert.KernelIdeal.BlockValue

end
-- ==== Proof.RowBlocks.lean ====
/-
  From blocks to the array. Grid point t (of 32) stages rows 512·t … 512·t + 511 of the argument, all 4096 columns,
  the same rows of the cutoff column, and writes back the same rows of the result: each of the three index maps sends
  t to block row t, block column 0 (`block_rows`, decided over the 32 points). The cutoff column the kernel stages is
  the cutoff vector re-laid as a 16384 × 1 column by the one host operation before the call, entry (n, 0) holding b[n]
  (`entry_cutoffs`, `column_apply`). So the entry at row p, column q of what point t writes back is the body's product
  of x[512·t + p, q] with the factor of column q against b[512·t + p] — rows 512·t … of `prefixMasked` of the two
  arguments (`flushed_eq`). Row n lies in the block of point n / 512 (`every_row_covered`), so after the run the result
  array is `prefixMasked` of the arguments (`result_array`, `run`).
-/
import proofs.«119946_j88476326298285_2_alg».proof.Proof.Gen.KernelIdeal.Value
import proofs.«119946_j88476326298285_2_alg».proof.Proof.BlockMask
import Idealize.ShloMosaic.Lib.Pipeline.Value
import Idealize.ShloMosaic.Lib.StableHlo.Run
import Idealize.ShloMosaic.Lib.Tactic

noncomputable section

namespace Cert.KernelIdeal.RowBlocks

open Cert.KernelIdeal Cert.KernelIdeal.Gen Cert.PrefixMask
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The body's loads and its store sit at offsets (0, 0) of their buffers. -/
theorem zero_offsets : (![0, 0] : Fin 2 → Nat) = fun _ => 0 := funext fun a => by fin_cases a <;> rfl

/-- Point t's three blocks are block row t, block column 0 of their arrays. -/
theorem block_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A vector of 16384 words re-laid as a 16384 × 1 column holds entry n at (n, 0). -/
theorem column_apply (b : S16384.Idx → BitVec 32) (k : S16384x1.Idx) :
    shapeCast S16384x1 b shapeCasts_S16384_S16384x1 k = b (ix1 (k 0)) := by
  refine shapeCast_apply b shapeCasts_S16384_S16384x1 k (ix1 (k 0)) ?_
  rw [Shape.rowMajor_val_one, Shape.rowMajor_val_two]
  have h1 : (k 1).val < 1 := (k 1).isLt
  show (k 0).val = (k 0).val * 1 + (k 1).val
  omega

/-- The region finds the cutoff column holding the cutoff vector re-laid: the host operation that writes it. -/
theorem entry_cutoffs (c : Dev nD) :
    (V m c main_v0 : S16384x1.Idx → BitVec 32)
      = shapeCast S16384x1 (m ((c : Thread nD τ).loc main_arg1)) shapeCasts_S16384_S16384x1 := by
  dsimp only [Gen.V, Gen.hostOps0]; after_results; rfl

/-- One entry of a block's product is the specification's entry, once the block's entry is the array's, the block's
    cutoff the row's, and the block's column the array's. -/
theorem block_entry (x : Rows.Idx → EReal) (b : Cuts.Idx → BitVec 32)
    (cut : Vec Ideal S512x1 .i32) (blk : Vec Ideal S512x4096 .f32) (y : S512x4096.Idx) (i : Rows.Idx)
    (hblk : blk y = x i) (hcut : cut (ix2 (y 0) 0) = b (ix1 (i 0))) (hcol : (y 1).val = (i 1).val) :
    k0_pay1 (F := Ideal) cut blk y = prefixMasked x b i := by
  obtain ⟨p, q, rfl⟩ : ∃ (p : Fin 512) (q : Fin 4096), y = ix2 p q := ⟨y 0, y 1, eq_ix2 y⟩
  have hcut' : cut (ix2 p 0) = b (ix1 (i 0)) := hcut
  have hcol' : q.val = (i 1).val := hcol
  rw [BlockValue.payload_apply, hblk, hcut', hcol']
  rfl

/-- What point t writes back is rows 512·t … 512·t + 511 of `prefixMasked` of the two arguments. -/
theorem flushed_eq (c : Dev nD) (t : Fin cfg0.N) :
    (dats m 0 c).flushed 2 t = ((cfg0.win 2).blk t).view.read (Elt Ideal)
      (prefixMasked (m ((c : Thread nD τ).loc main_arg0)) (m ((c : Thread nD τ).loc main_arg1))) := by
  rw [Value.flushed2]
  unfold out0_2
  rw [View.canon_unit_zero zero_offsets]
  simp only [View.ld_unit_zero (S := S512x4096) zero_offsets, View.ld_unit_zero (S := S512x1) zero_offsets]
  obtain ⟨e00, e01, e10, e11, e20, e21⟩ := block_rows t
  funext j
  show k0_pay1 (F := Ideal) (iblk m c 1 t) (iblk m c 0 t) j
    = prefixMasked (m ((c : Thread nD τ).loc main_arg0)) (m ((c : Thread nD τ).loc main_arg1)) (((cfg0.win 2).blk t).view.emb j)
  refine block_entry _ _ (iblk m c 1 t) (iblk m c 0 t) j (((cfg0.win 2).blk t).view.emb j) ?_ ?_ ?_
  · show V m c main_arg0 (((cfg0.win 0).blk t).view.emb j) = m ((c : Thread nD τ).loc main_arg0) (((cfg0.win 2).blk t).view.emb j)
    have h0 : ((cfg0.win 0).blk t).view.emb j = ((cfg0.win 2).blk t).view.emb j := by
      funext a; apply Fin.ext
      match a with
      | ⟨0, _⟩ => show win0_0.index t (0 : Fin 2) * 512 + 1 * (j 0).val = win0_2.index t (0 : Fin 2) * 512 + 1 * (j 0).val; rw [e00, e20]
      | ⟨1, _⟩ => show win0_0.index t (1 : Fin 2) * 4096 + 1 * (j 1).val = win0_2.index t (1 : Fin 2) * 4096 + 1 * (j 1).val; rw [e01, e21]
    rw [h0, V_main_arg0]
  · show V m c main_v0 (((cfg0.win 1).blk t).view.emb (ix2 (j 0) 0)) = _
    rw [entry_cutoffs, column_apply]
    refine congrArg (m ((c : Thread nD τ).loc main_arg1)) (funext fun a => Fin.ext ?_)
    match a with
    | ⟨0, _⟩ => show win0_1.index t (0 : Fin 2) * 512 + 1 * (j 0).val = win0_2.index t (0 : Fin 2) * 512 + 1 * (j 0).val; rw [e10, e20]
  · show (j 1).val = win0_2.index t (1 : Fin 2) * 4096 + 1 * (j 1).val
    rw [e21]; omega

/-- An index of the result array is in point t's block iff each coordinate is in the block's range on its axis. -/
theorem mem_block (t : Fin cfg0.N) (i : S16384x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v1).slice (win0_2.rect t)).set ↔ _
  rw [View.set_slice_whole, Rect.mem_set_unit]
  exact Iff.rfl

/-- Row n of the result lies in the block that point n / 512 writes back. -/
theorem every_row_covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨-, -, -, -, e20, e21⟩ := block_rows t
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    rw [e20, ht]; omega
  | ⟨1, _⟩ =>
    show win0_2.index t (1 : Fin 2) * 4096 ≤ (i 1).val ∧ (i 1).val < win0_2.index t (1 : Fin 2) * 4096 + 4096
    rw [e21]; omega

/-- The result array after the run is `prefixMasked` of the two arguments. -/
theorem result_array (c : Dev nD) :
    (dats m 0 c).arrAt 2 cfg0.N
      = prefixMasked (m ((c : Thread nD τ).loc main_arg0)) (m ((c : Thread nD τ).loc main_arg1)) :=
  (dats m 0 c).arrAt_eq_of_cover 2 _ (fun t _ => flushed_eq m c t) every_row_covered

/-- The kernel's run, read: every weakly fair execution ends with the result array at `prefixMasked` of the arguments
    and the arguments unchanged. -/
theorem run : θ_run defs (onTc (τ := τ) (main (F := Ideal))) ⟨m, fun _ => 0, ρ⟩ fun r => ∀ c : Dev nD,
      r.2.mem ((c : Thread nD τ).loc main_v1)
        = prefixMasked (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩)
    (Value.run_blocks m ρ)

end Cert.KernelIdeal.RowBlocks

end
-- ==== Proof.lean ====
/-
  The claim: a kernel that multiplies every row n of a 16384 × 4096 array x by the 0/1 row whose first b[n] entries are
  1 — out[n, j] = x[n, j] · [j < b[n]], the comparison that of signed 32-bit numbers — computes, over the extended
  reals, what the plain array expression `x * (arange(4096)[None, :] < b[:, None])` computes.

  The kernel works through the array 512 rows at a time. For each block it lays the block's 512 cutoffs along the
  columns, compares the column numbers with them, widens the comparison's bit to a 32-bit word, reads the word as a
  signed number, and multiplies. The reference lays the column numbers down the rows and the cutoffs along the columns
  over the whole array, compares, reads the bit as an unsigned number, and multiplies. A one-bit word widened by zeros
  is 0 or 1 on either reading, so both programs form the same product entry by entry (`Proof/PrefixMask.lean`: the
  specification `prefixMasked` and the two readings of the bit). No law of extended-real arithmetic enters, so the
  finiteness of the inputs is never used.

  The modules: `PrefixMask` (the specification), `ReferenceMask` (the reference's result is the specification, read
  one operation at a time), `BlockMask` (the kernel's product at one entry of a block), `RowBlocks` (the 32 blocks are
  the 32 bands of 512 rows of the specification, and they cover the array: the kernel's result array is the
  specification). Here: the three programs terminate without a fault and leave their arguments unchanged; the
  idealized kernel is the kernel's own text (nothing was rewritten); and the two idealized programs end with equal
  results.
-/
import proofs.«119946_j88476326298285_2_alg».proof.Defs
import proofs.«119946_j88476326298285_2_alg».proof.Proof.Gen.Kernel
import proofs.«119946_j88476326298285_2_alg».proof.Proof.Gen.Kernel.Skeleton
import proofs.«119946_j88476326298285_2_alg».proof.Proof.Gen.Kernel.Launch
import proofs.«119946_j88476326298285_2_alg».proof.Proof.Gen.Kernel.Points
import proofs.«119946_j88476326298285_2_alg».proof.Proof.Gen.Kernel.Frame
import proofs.«119946_j88476326298285_2_alg».proof.Proof.Gen.KernelIdeal
import proofs.«119946_j88476326298285_2_alg».proof.Proof.Gen.KernelIdeal.Skeleton
import proofs.«119946_j88476326298285_2_alg».proof.Proof.Gen.KernelIdeal.Launch
import proofs.«119946_j88476326298285_2_alg».proof.Proof.Gen.KernelIdeal.Points
import proofs.«119946_j88476326298285_2_alg».proof.Proof.Gen.KernelIdeal.Frame
import proofs.«119946_j88476326298285_2_alg».proof.Proof.Gen.ReferenceIdeal
import proofs.«119946_j88476326298285_2_alg».proof.Proof.Gen.Pre_finite_inputs
import proofs.«119946_j88476326298285_2_alg».proof.Proof.Gen.KernelIdeal.Value
import proofs.«119946_j88476326298285_2_alg».proof.Proof.Gen.ReferenceIdeal.Run
import proofs.«119946_j88476326298285_2_alg».proof.Proof.Gen.ReferenceIdeal.Read
import proofs.«119946_j88476326298285_2_alg».proof.Proof.PrefixMask
import proofs.«119946_j88476326298285_2_alg».proof.Proof.ReferenceMask
import proofs.«119946_j88476326298285_2_alg».proof.Proof.RowBlocks
import Idealize.ShloMosaic.Adequacy
import Idealize.ShloMosaic.Init

noncomputable section

namespace Cert.Proof

open Idealize.ShloMosaic Idealize.ShloMosaic.TcCoe Idealize.SL.Sem

/-- The kernel as printed terminates, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel, so there is nothing to preserve. -/
theorem preserves : Cert.preserves_Kernel_KernelIdeal := trivial

/-- From memories that agree on x and b, both idealized programs end with the result array at `prefixMasked x b`:
    the kernel by its 32 bands of rows (`RowBlocks.run`), the reference by its operations read one at a time
    (`RefValue.reference_eq`). -/
theorem algebraic : Cert.algebraic_KernelIdeal_ReferenceIdeal := by
  intro m ρ m' ρ' _ hagree
  refine ⟨fun c => Cert.PrefixMask.prefixMasked (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.RowBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
